-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S64x16 .f32) (main_arg10 : FVec F S16 .f32) (main_v33 : IVec S_ 1) : IVec S_ 1 :=
  let main_v34 : FVec F S64x16 .f32 := Host.absf main_arg9
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x16 .f32) (main_arg10 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x16 .f32) (main_arg10 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S1x16 : Shape := ⟨2, ![1, 16]⟩
abbrev S512x16 : Shape := ⟨2, ![512, 16]⟩

abbrev nBuf : Space → Nat
  | .hbm => 142
  | .vmem => 22
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x16, .f32⟩
  | 10 => ⟨S16, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S100000, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S_, .f32⟩
  | 29 => ⟨S1700000, .f32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S100000x64, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x64, .f32⟩
  | 68 => ⟨S1700000x1, .f32⟩
  | 69 => ⟨S1700000x64, .f32⟩
  | 70 => ⟨S1700000x64, .f32⟩
  | 71 => ⟨S_, .f32⟩
  | 72 => ⟨S100000x64, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S100000x64, .f32⟩
  | 82 => ⟨S1x64, .f32⟩
  | 83 => ⟨S100000x64, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000x64, .f32⟩
  | 93 => ⟨S1700000x1, .f32⟩
  | 94 => ⟨S1700000x64, .f32⟩
  | 95 => ⟨S1700000x64, .f32⟩
  | 96 => ⟨S_, .f32⟩
  | 97 => ⟨S100000x64, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S100000x64, .f32⟩
  | 107 => ⟨S1x64, .f32⟩
  | 108 => ⟨S100000x64, .f32⟩
  | 109 => ⟨S_, .f32⟩
  | 110 => ⟨S512x64, .f32⟩
  | 111 => ⟨S_, .i32⟩
  | 112 => ⟨S100000, .i32⟩
  | 113 => ⟨S100000, .i1⟩
  | 114 => ⟨S_, .i32⟩
  | 115 => ⟨S100000, .i32⟩
  | 116 => ⟨S100000, .i32⟩
  | 117 => ⟨S100000, .i32⟩
  | 118 => ⟨S100000x1, .i32⟩
  | 119 => ⟨S512x64, .f32⟩
  | 120 => ⟨S_, .f32⟩
  | 121 => ⟨S512, .f32⟩
  | 122 => ⟨S_, .i32⟩
  | 123 => ⟨S100000, .i32⟩
  | 124 => ⟨S100000, .i1⟩
  | 125 => ⟨S_, .i32⟩
  | 126 => ⟨S100000, .i32⟩
  | 127 => ⟨S100000, .i32⟩
  | _ => ⟨S100000x64, .f32⟩

abbrev hbmTy0_1 (i : Nat) : BufTy := match i % 128 with
  | 0 => ⟨S100000, .i32⟩
  | 1 => ⟨S100000x1, .i32⟩
  | 2 => ⟨S_, .f32⟩
  | 3 => ⟨S100000, .f32⟩
  | 4 => ⟨S512, .f32⟩
  | 5 => ⟨S_, .f32⟩
  | 6 => ⟨S512, .f32⟩
  | 7 => ⟨S512, .f32⟩
  | 8 => ⟨S512x1, .f32⟩
  | 9 => ⟨S512x64, .f32⟩
  | 10 => ⟨S512x64, .f32⟩
  | 11 => ⟨S1x64, .f32⟩
  | 12 => ⟨S1x16, .f32⟩
  | 13 => ⟨S512x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S512x64, .f32⟩
  | .local _ .vmem, ⟨17, _⟩ => ⟨S64x64, .f32⟩
  | .local _ .vmem, ⟨18, _⟩ => ⟨S1x64, .f32⟩
  | .local _ .vmem, ⟨19, _⟩ => ⟨S64x16, .f32⟩
  | .local _ .vmem, ⟨20, _⟩ => ⟨S1x16, .f32⟩
  | .local _ .vmem, ⟨21, _⟩ => ⟨S512x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_13 : Ref sig .tc := ⟨.hbm, 84, rfl⟩
abbrev main_v56 : Ref sig .tc := ⟨.hbm, 85, rfl⟩
abbrev main_v57 : Ref sig .tc := ⟨.hbm, 86, rfl⟩
abbrev main_c_14 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_15 : Ref sig .tc := ⟨.hbm, 96, rfl⟩
abbrev main_v66 : Ref sig .tc := ⟨.hbm, 97, rfl⟩
abbrev main_c_16 : Ref sig .tc := ⟨.hbm, 98, rfl⟩
abbrev main_v67 : Ref sig .tc := ⟨.hbm, 99, rfl⟩
abbrev main_v68 : Ref sig .tc := ⟨.hbm, 100, rfl⟩
abbrev main_c_17 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_18 : Ref sig .tc := ⟨.hbm, 109, rfl⟩
abbrev main_v76 : Ref sig .tc := ⟨.hbm, 110, rfl⟩
abbrev main_c_19 : Ref sig .tc := ⟨.hbm, 111, rfl⟩
abbrev main_v77 : Ref sig .tc := ⟨.hbm, 112, rfl⟩
abbrev main_v78 : Ref sig .tc := ⟨.hbm, 113, rfl⟩
abbrev main_c_20 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_21 : Ref sig .tc := ⟨.hbm, 120, rfl⟩
abbrev main_v84 : Ref sig .tc := ⟨.hbm, 121, rfl⟩
abbrev main_c_22 : Ref sig .tc := ⟨.hbm, 122, rfl⟩
abbrev main_v85 : Ref sig .tc := ⟨.hbm, 123, rfl⟩
abbrev main_v86 : Ref sig .tc := ⟨.hbm, 124, rfl⟩
abbrev main_c_23 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_24 : Ref sig .tc := ⟨.hbm, 130, rfl⟩
abbrev main_v91 : Ref sig .tc := ⟨.hbm, 131, rfl⟩
abbrev main_v92 : Ref sig .tc := ⟨.hbm, 132, rfl⟩
abbrev main_cst_25 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S16_S1x16 : S16.ShapeCasts S1x16
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S1x64_S512x64 : S1x64.Broadcasts S512x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  inb_S512x16_S512x16_0_0 : ∀ a, (![0, 0] : Fin 2 → Nat) a + S512x16.size a ≤ S512x16.size a
  h_S512x16 : 0 < S512x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x64_S512x64_1_0_0_1_n_n_wf : DotDims.WF S512x64 S64x64 S512x64 [1] [0] [0] [1] [] []
  dot_S512x64_S64x16_S512x16_1_0_0_1_n_n_wf : DotDims.WF S512x64 S64x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S512x64.size a
  hwx3_0 : ∀ i : grid3.Coords, EltTy.bits .f32 = 32 ∨ (Rect.block (s := S512x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x16.size a ≤ S64x16.size a
  hwx3_3 : ∀ i : grid3.Coords, EltTy.bits .f32 = 32 ∨ (Rect.block (s := S64x16) S64x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x16.size a ≤ S512x16.size a
  hwx3_5 : ∀ i : grid3.Coords, EltTy.bits .f32 = 32 ∨ (Rect.block (s := S512x16) S512x16.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v73) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v97) S512x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v98) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v99) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v100) S512x16.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x16 : Shape := ⟨2, ![512, 16]⟩
abbrev S1x16 : Shape := ⟨2, ![1, 16]⟩

abbrev nBuf : Space → Nat
  | .hbm => 159
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x16, .f32⟩
  | 10 => ⟨S16, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S100000, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S_, .f32⟩
  | 29 => ⟨S1700000, .f32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S100000x64, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x64, .f32⟩
  | 68 => ⟨S1700000x1, .f32⟩
  | 69 => ⟨S1700000x64, .f32⟩
  | 70 => ⟨S1700000x64, .f32⟩
  | 71 => ⟨S_, .f32⟩
  | 72 => ⟨S100000x64, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S100000x64, .f32⟩
  | 82 => ⟨S1x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S100000x64, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000x64, .f32⟩
  | 98 => ⟨S1700000x1, .f32⟩
  | 99 => ⟨S1700000x64, .f32⟩
  | 100 => ⟨S1700000x64, .f32⟩
  | 101 => ⟨S_, .f32⟩
  | 102 => ⟨S100000x64, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S_, .f32⟩
  | 119 => ⟨S512x64, .f32⟩
  | 120 => ⟨S_, .i32⟩
  | 121 => ⟨S100000, .i32⟩
  | 122 => ⟨S100000, .i1⟩
  | 123 => ⟨S_, .i32⟩
  | 124 => ⟨S100000, .i32⟩
  | 125 => ⟨S100000, .i32⟩
  | 126 => ⟨S100000, .i32⟩
  | 127 => ⟨S100000x1, .i32⟩
  | _ => ⟨S100000x64, .f32⟩

abbrev hbmTy0_1 (i : Nat) : BufTy := match i % 128 with
  | 0 => ⟨S512x64, .f32⟩
  | 1 => ⟨S_, .f32⟩
  | 2 => ⟨S512, .f32⟩
  | 3 => ⟨S_, .i32⟩
  | 4 => ⟨S100000, .i32⟩
  | 5 => ⟨S100000, .i1⟩
  | 6 => ⟨S_, .i32⟩
  | 7 => ⟨S100000, .i32⟩
  | 8 => ⟨S100000, .i32⟩
  | 9 => ⟨S100000, .i32⟩
  | 10 => ⟨S100000x1, .i32⟩
  | 11 => ⟨S_, .f32⟩
  | 12 => ⟨S100000, .f32⟩
  | 13 => ⟨S512, .f32⟩
  | 14 => ⟨S_, .f32⟩
  | 15 => ⟨S512, .f32⟩
  | 16 => ⟨S512, .f32⟩
  | 17 => ⟨S512x1, .f32⟩
  | 18 => ⟨S512x64, .f32⟩
  | 19 => ⟨S512x64, .f32⟩
  | 20 => ⟨S512x64, .f32⟩
  | 21 => ⟨S1x64, .f32⟩
  | 22 => ⟨S512x64, .f32⟩
  | 23 => ⟨S512x64, .f32⟩
  | 24 => ⟨S_, .f32⟩
  | 25 => ⟨S512x64, .f32⟩
  | 26 => ⟨S512x64, .f32⟩
  | 27 => ⟨S512x16, .f32⟩
  | 28 => ⟨S1x16, .f32⟩
  | 29 => ⟨S512x16, .f32⟩
  | 30 => ⟨S512x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call1_cst : Ref sig .tc := ⟨.hbm, 85, rfl⟩
abbrev main_call1_v0 : Ref sig .tc := ⟨.hbm, 86, rfl⟩
abbrev main_v57 : Ref sig .tc := ⟨.hbm, 87, rfl⟩
abbrev main_v58 : Ref sig .tc := ⟨.hbm, 88, rfl⟩
abbrev main_c_13 : Ref sig .tc := ⟨.hbm, 89, rfl⟩
abbrev main_v59 : Ref sig .tc := ⟨.hbm, 90, rfl⟩
abbrev main_v60 : Ref sig .tc := ⟨.hbm, 91, rfl⟩
abbrev main_c_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_15 : Ref sig .tc := ⟨.hbm, 101, rfl⟩
abbrev main_v69 : Ref sig .tc := ⟨.hbm, 102, rfl⟩
abbrev main_c_16 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call2_cst : Ref sig .tc := ⟨.hbm, 115, rfl⟩
abbrev main_call2_v0 : Ref sig .tc := ⟨.hbm, 116, rfl⟩
abbrev main_v80 : Ref sig .tc := ⟨.hbm, 117, rfl⟩
abbrev main_cst_18 : Ref sig .tc := ⟨.hbm, 118, rfl⟩
abbrev main_v81 : Ref sig .tc := ⟨.hbm, 119, rfl⟩
abbrev main_c_19 : Ref sig .tc := ⟨.hbm, 120, rfl⟩
abbrev main_v82 : Ref sig .tc := ⟨.hbm, 121, rfl⟩
abbrev main_v83 : Ref sig .tc := ⟨.hbm, 122, rfl⟩
abbrev main_c_20 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_21 : Ref sig .tc := ⟨.hbm, 129, rfl⟩
abbrev main_v89 : Ref sig .tc := ⟨.hbm, 130, rfl⟩
abbrev main_c_22 : Ref sig .tc := ⟨.hbm, 131, rfl⟩
abbrev main_v90 : Ref sig .tc := ⟨.hbm, 132, rfl⟩
abbrev main_v91 : Ref sig .tc := ⟨.hbm, 133, rfl⟩
abbrev main_c_23 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_24 : Ref sig .tc := ⟨.hbm, 139, rfl⟩
abbrev main_v96 : Ref sig .tc := ⟨.hbm, 140, rfl⟩
abbrev main_v97 : Ref sig .tc := ⟨.hbm, 141, rfl⟩
abbrev main_cst_25 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_call3_cst : Ref sig .tc := ⟨.hbm, 152, rfl⟩
abbrev main_call3_v0 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x64_S512x64_1_0_0_1_n_n_wf : DotDims.WF S512x64 S64x64 S512x64 [1] [0] [0] [1] [] []
  dot_S512x64_S64x16_S512x16_1_0_0_1_n_n_wf : DotDims.WF S512x64 S64x16 S512x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf

class Facts : Prop extends Facts₀ where

variable [Facts]
-- ==== Proof.KRun.lean ====
/-
  The idealized kernel program's run with its RESULT named.

  The program is ten segments: host operations, the first matrix-product call, host operations, the second call, and so
  on to the fourth call. The contents of every buffer at each segment boundary are a fold from the launch memory
  (`W0` … `W10`: a stretch of host operations applies them in order; a call replaces its arrays by what its
  write-backs leave). The run below ends with every buffer at the last boundary's contents; read at the result buffer
  this names the result, `W10 … main_v100`, and read at an argument it gives the argument back.
-/
import proofs.«114673_j12034498363886_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run_named : θ_run defs (onTc (τ := τ) (main (F := F))) ⟨m, fun _ => 0, ρ⟩ (fun r => ∀ c : Dev nD,
      r.2.mem ((c.tc : Thread nD τ).loc main_v100) = W10 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v100 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.Named

end
-- ==== Proof.Spec.lean ====
/-
  The two-layer graph convolution with mean pooling and a two-layer head, as ONE function of the eleven argument
  arrays, built from named pieces.

  With N = 100000 nodes, E = 1600000 edges and 512 graphs: the edge list is extended by one self loop per node
  (`srcRaw`, `dstRaw`: row 0 resp. row 1 of the edge array followed by 0 … N-1); a negative index is wrapped once
  by N (`wrapIdx`); `deg` counts, per node, the extended edges that end there; `dinv` is deg^(-1/2) where deg > 0 and
  0 elsewhere; an extended edge's weight `nrm` is dinv(src) · dinv(dst). One aggregation `agg` sends a node-feature
  array h to the array whose row v is the sum over the extended edges ending in v of weight · h[source row].
  `lin` is a node-wise matrix product, `act` adds a bias row and clamps below at 0, `pool` is the per-graph mean of
  the node rows (a graph with no node divides by 1), `head` is relu(p·W + b)·W' + b'.
  The network is `G`: head (pool (act (agg (lin (act (agg (lin x W1)) b1) W2)) b2)).
  Nothing here is opened again: the gathers, the scatter-adds and the selects are carried as they stand.
-/
import proofs.«114673_j12034498363886_1_alg».proof.ReferenceIdeal

noncomputable section

namespace Cert.Gcn

open Idealize.ShloMosaic Cert.ReferenceIdeal Cert.ReferenceIdeal.Facts₀

variable {F : FTy → Type} [FloatOps F] [Cert.ReferenceIdeal.Facts₀]

/-- Source node of every extended edge: row 0 of the edge array, then the self loops 0 … N-1. -/
def srcRaw (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Target node of every extended edge: row 1 of the edge array, then the self loops. -/
def dstRaw (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node index counts from the end: N is added to it once; the result as a column of indices. -/
def wrapIdx (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- In-degree over the extended edge list: 1 added at each edge's target. -/
def deg (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (wrapIdx (dstRaw e)) (broadcastInDim S1700000 ![] bcast_S_S1700000 (constant S_ .f32 0x3F800000#32))

/-- deg^(-1/2) where the degree is positive, 0 elsewhere. -/
def dinv (e : (⟨S2x1600000, .i32⟩ : BufTy).Contents (Elt F)) : (⟨S100000, .f32⟩ : BufTy).Contents (Elt F) :=
  select (cmpf .ogt (deg e) (broadcastInDim S100000 ![] bcast_S_S100000 (constant S_ .f32 0x00000000#32))) (Host.rsqrt (deg e)) (broadcastInDim S100000 ![] bcast_S_S100000 (id (constant S_ .f32 0x00000000#32)))

/-- The symmetric normalisation weight of every extended edge: dinv(source) · dinv(target). -/
def nrm (e : (⟨S2x1600000, .i32⟩ : BufTy).Contents (Elt F)) : (⟨S1700000, .f32⟩ : BufTy).Contents (Elt F) :=
  mulf (Host.gather gather_S100000_S1700000x1_S1700000_n_0_n_n_0_1_1 (dinv e) (wrapIdx (srcRaw e))) (Host.gather gather_S100000_S1700000x1_S1700000_n_0_n_n_0_1_1 (dinv e) (wrapIdx (dstRaw e)))

/-- One round of message passing: row v of the result is the sum, over the extended edges ending in v, of the edge's
    weight times the source node's row of `h`. -/
def agg (e : (⟨S2x1600000, .i32⟩ : BufTy).Contents (Elt F)) (h : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (wrapIdx (dstRaw e)) (mulf (Host.gather gather_S100000x64_S1700000x1_S1700000x64_1_0_n_n_0_1_164 h (wrapIdx (srcRaw e))) (broadcastInDim S1700000x64 ![0, 1] bcast_S1700000x1_S1700000x64_0_1 (broadcastInDim S1700000x1 ![0] bcast_S1700000_S1700000x1_0 (nrm e))))

/-- Node-wise linear map: every node row times a 64 × 64 matrix. -/
def lin (h : (⟨S100000x64, .f32⟩ : BufTy).Contents (Elt F)) (w : (⟨S64x64, .f32⟩ : BufTy).Contents (Elt F)) : (⟨S100000x64, .f32⟩ : BufTy).Contents (Elt F) :=
  Host.dotGeneral dot_S100000x64_S64x64_S100000x64_1_0_0_1_n_n none h w

/-- A bias vector laid along every node row. -/
def biasRows (b : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 b)

/-- Add the bias to every node row and clamp below at 0. -/
def act (a : (⟨S100000x64, .f32⟩ : BufTy).Contents (Elt F)) (b : (⟨S64, .f32⟩ : BufTy).Contents (Elt F)) : (⟨S100000x64, .f32⟩ : BufTy).Contents (Elt F) :=
  maximumf (addf a (biasRows b)) (broadcastInDim S100000x64 ![] bcast_S_S100000x64 (constant S_ .f32 0x00000000#32))

/-- The graph id of every node, a negative id wrapped once by the number of graphs, as a column of indices. -/
def graphIdx (bt : (⟨S100000, .i32⟩ : BufTy).Contents (Elt F)) : (⟨S100000x1, .i32⟩ : BufTy).Contents (Elt F) :=
  broadcastInDim S100000x1 ![0] bcast_S100000_S100000x1_0 (select (cmpi .slt bt (broadcastInDim S100000 ![] bcast_S_S100000 (constantI S_ 32 0#32))) (addi bt (broadcastInDim S100000 ![] bcast_S_S100000 (constantI S_ 32 512#32))) bt)

/-- Per-graph mean of the node rows: the rows summed per graph, divided by max(number of nodes of the graph, 1). -/
def pool (bt : (⟨S100000, .i32⟩ : BufTy).Contents (Elt F)) (h : (⟨S100000x64, .f32⟩ : BufTy).Contents (Elt F)) : (⟨S512x64, .f32⟩ : BufTy).Contents (Elt F) :=
  Host.divf (Host.scatterAdd scatter_S512x64_S100000x1_S100000x64_1_0_0_1 (broadcastInDim S512x64 ![] bcast_S_S512x64 (constant S_ .f32 0x00000000#32)) (graphIdx bt) h) (broadcastInDim S512x64 ![0, 1] bcast_S512x1_S512x64_0_1 (broadcastInDim S512x1 ![0] bcast_S512_S512x1_0 (maximumf (Host.scatterAdd scatter_S512_S100000x1_S100000_n_0_0_1 (broadcastInDim S512 ![] bcast_S_S512 (constant S_ .f32 0x00000000#32)) (graphIdx bt) (broadcastInDim S100000 ![] bcast_S_S100000 (constant S_ .f32 0x3F800000#32))) (broadcastInDim S512 ![] bcast_S_S512 (constant S_ .f32 0x3F800000#32)))))

/-- The head on the pooled rows: relu(p · W + b) · W' + b'. -/
def head (p : (⟨S512x64, .f32⟩ : BufTy).Contents (Elt F)) (w : (⟨S64x64, .f32⟩ : BufTy).Contents (Elt F)) (b : (⟨S64, .f32⟩ : BufTy).Contents (Elt F))
    (w' : (⟨S64x16, .f32⟩ : BufTy).Contents (Elt F)) (b' : (⟨S16, .f32⟩ : BufTy).Contents (Elt F)) : (⟨S512x16, .f32⟩ : BufTy).Contents (Elt F) :=
  addf (Host.dotGeneral dot_S512x64_S64x16_S512x16_1_0_0_1_n_n none (maximumf (addf (Host.dotGeneral dot_S512x64_S64x64_S512x64_1_0_0_1_n_n none p w) (broadcastInDim S512x64 ![0, 1] bcast_S1x64_S512x64_0_1 (broadcastInDim S1x64 ![1] bcast_S64_S1x64_1 b))) (broadcastInDim S512x64 ![] bcast_S_S512x64 (constant S_ .f32 0x00000000#32))) w') (broadcastInDim S512x16 ![0, 1] bcast_S1x16_S512x16_0_1 (broadcastInDim S1x16 ![1] bcast_S16_S1x16_1 b'))

/-- The whole network on the eleven arguments. -/
def G (x : (⟨S100000x64, .f32⟩ : BufTy).Contents (Elt F)) (e : (⟨S2x1600000, .i32⟩ : BufTy).Contents (Elt F)) (bt : (⟨S100000, .i32⟩ : BufTy).Contents (Elt F))
    (w1 : (⟨S64x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F))
    (lw1 : (⟨S64x64, .f32⟩ : BufTy).Contents (Elt F)) (lb1 : (⟨S64, .f32⟩ : BufTy).Contents (Elt F))
    (lw2 : (⟨S64x16, .f32⟩ : BufTy).Contents (Elt F)) (lb2 : (⟨S16, .f32⟩ : BufTy).Contents (Elt F)) : (⟨S512x16, .f32⟩ : BufTy).Contents (Elt F) :=
  head (pool bt (act (agg e (lin (act (agg e (lin x w1)) b1) w2)) b2)) lw1 lb1 lw2 lb2

end Cert.Gcn

end
-- ==== Proof.KHost.lean ====
/-
  What the host operations between the calls compute, in the idealized kernel program.

  The buffer contents at the segment boundaries are the fold `W0` … `W10`. Here each buffer that a later segment reads
  is named at the boundary where it is read: the extended edge list's sources and targets and the edge weights before
  the first call; one aggregation of the first call's product, and the first bias as a one-row matrix, before the
  second call; one aggregation of the second call's product, and the second bias, before the third; the per-graph mean
  of the third call's array, and the head's two biases, before the fourth. A buffer no segment in between writes keeps
  its contents, so the argument arrays are read back to the launch memory.
-/
import proofs.«114673_j12034498363886_1_alg».proof.Proof.Gen.KernelIdeal.Frame
import proofs.«114673_j12034498363886_1_alg».proof.Proof.Spec
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F] [Cert.ReferenceIdeal.Facts₀]
variable (m : (ℓ : Loc nD τ sig) → Buf (Elt F) ℓ) (ρ : Dev nD → PrngReg)

/-! ## Before the first call -/

set_option maxHeartbeats 4000000 in
/-- The sources of the extended edge list. -/
theorem W3_src (c : Dev nD) : W3 m ρ c (Proc.devRef .tc main_v3) = Cert.Gcn.srcRaw (m ((c : Thread nD τ).loc main_arg1)) := by
  dsimp only [W3, W2, W1, hostOps0, hostOps0_1, hostOps0_2]
  after_results_simp <;> rfl

set_option maxHeartbeats 4000000 in
/-- The targets of the extended edge list. -/
theorem W3_dst (c : Dev nD) : W3 m ρ c (Proc.devRef .tc main_v6) = Cert.Gcn.dstRaw (m ((c : Thread nD τ).loc main_arg1)) := by
  dsimp only [W3, W2, W1, hostOps0, hostOps0_1, hostOps0_2]
  after_results_simp <;> rfl

set_option maxHeartbeats 8000000 in
/-- The weight of every extended edge. -/
theorem W3_nrm (c : Dev nD) : W3 m ρ c (Proc.devRef .tc main_v34) = Cert.Gcn.nrm (m ((c : Thread nD τ).loc main_arg1)) := by
  dsimp only [W3, W2, W1, hostOps0, hostOps0_1, hostOps0_2]
  after_results_simp <;> rfl

/-- The argument arrays other than the edge list. -/
def IsArg (b : Ref sig .tc) : Prop :=
  b = main_arg0 ∨ b = main_arg2 ∨ b = main_arg3 ∨ b = main_arg4 ∨ b = main_arg5 ∨ b = main_arg6 ∨ b = main_arg7 ∨ b = main_arg8 ∨ b = main_arg9 ∨ b = main_arg10

set_option maxHeartbeats 16000000 in
/-- No host operation before the first call writes an argument. -/
theorem W3_arg (c : Dev nD) (b : Ref sig .tc) (hb : IsArg b) : W3 m ρ c (Proc.devRef .tc b) = m ((c : Thread nD τ).loc b) := by
  rcases hb with rfl | rfl | rfl | rfl | rfl | rfl | rfl | rfl | rfl | rfl <;>
  · dsimp only [W3, W2, W1, hostOps0, hostOps0_1, hostOps0_2]
    after_results_simp <;> rfl

/-! ## Across the first call and before the second -/

theorem W4_src (c : Dev nD) : W4 m ρ c (Proc.devRef .tc main_v3) = Cert.Gcn.srcRaw (m ((c : Thread nD τ).loc main_arg1)) :=
  (W4_of_ne m ρ c main_v3 (by decide)).trans (W3_src m ρ c)
theorem W4_dst (c : Dev nD) : W4 m ρ c (Proc.devRef .tc main_v6) = Cert.Gcn.dstRaw (m ((c : Thread nD τ).loc main_arg1)) :=
  (W4_of_ne m ρ c main_v6 (by decide)).trans (W3_dst m ρ c)
theorem W4_nrm (c : Dev nD) : W4 m ρ c (Proc.devRef .tc main_v34) = Cert.Gcn.nrm (m ((c : Thread nD τ).loc main_arg1)) :=
  (W4_of_ne m ρ c main_v34 (by decide)).trans (W3_nrm m ρ c)

/-- The arguments the first call does not read keep their contents across it. -/
def IsArg4 (b : Ref sig .tc) : Prop :=
  b = main_arg2 ∨ b = main_arg4 ∨ b = main_arg5 ∨ b = main_arg6 ∨ b = main_arg7 ∨ b = main_arg8 ∨ b = main_arg9 ∨ b = main_arg10

theorem W4_arg (c : Dev nD) (b : Ref sig .tc) (hb : IsArg4 b) : W4 m ρ c (Proc.devRef .tc b) = m ((c : Thread nD τ).loc b) := by
  rcases hb with rfl | rfl | rfl | rfl | rfl | rfl | rfl | rfl
  · exact (W4_of_ne m ρ c main_arg2 (by decide)).trans (W3_arg m ρ c _ (by unfold IsArg; simp))
  · exact (W4_of_ne m ρ c main_arg4 (by decide)).trans (W3_arg m ρ c _ (by unfold IsArg; simp))
  · exact (W4_of_ne m ρ c main_arg5 (by decide)).trans (W3_arg m ρ c _ (by unfold IsArg; simp))
  · exact (W4_of_ne m ρ c main_arg6 (by decide)).trans (W3_arg m ρ c _ (by unfold IsArg; simp))
  · exact (W4_of_ne m ρ c main_arg7 (by decide)).trans (W3_arg m ρ c _ (by unfold IsArg; simp))
  · exact (W4_of_ne m ρ c main_arg8 (by decide)).trans (W3_arg m ρ c _ (by unfold IsArg; simp))
  · exact (W4_of_ne m ρ c main_arg9 (by decide)).trans (W3_arg m ρ c _ (by unfold IsArg; simp))
  · exact (W4_of_ne m ρ c main_arg10 (by decide)).trans (W3_arg m ρ c _ (by unfold IsArg; simp))

set_option maxHeartbeats 4000000 in
/-- Before the second call: one aggregation of the first call's array. -/
theorem W5_agg (c : Dev nD) :
    W5 m ρ c (Proc.devRef .tc main_v53) = Cert.Gcn.agg (m ((c : Thread nD τ).loc main_arg1)) (W4 m ρ c (Proc.devRef .tc main_v35)) := by
  dsimp only [W5, hostOps1]
  after_results_simp
  rw [W4_src, W4_dst, W4_nrm]
  rfl

set_option maxHeartbeats 4000000 in
/-- Before the second call: the first bias as a one-row matrix. -/
theorem W5_bias (c : Dev nD) :
    W5 m ρ c (Proc.devRef .tc main_v54) = shapeCast S1x64 (m ((c : Thread nD τ).loc main_arg4) : (⟨S64, .f32⟩ : BufTy).Contents (Elt F)) shapeCasts_S64_S1x64 := by
  dsimp only [W5, hostOps1]
  after_results_simp
  rw [W4_arg m ρ c main_arg4 (by unfold IsArg4; simp)]
  rfl

set_option maxHeartbeats 4000000 in
theorem W5_src (c : Dev nD) : W5 m ρ c (Proc.devRef .tc main_v3) = Cert.Gcn.srcRaw (m ((c : Thread nD τ).loc main_arg1)) := by
  dsimp only [W5, hostOps1]
  after_results_simp
  exact W4_src m ρ c
set_option maxHeartbeats 4000000 in
theorem W5_dst (c : Dev nD) : W5 m ρ c (Proc.devRef .tc main_v6) = Cert.Gcn.dstRaw (m ((c : Thread nD τ).loc main_arg1)) := by
  dsimp only [W5, hostOps1]
  after_results_simp
  exact W4_dst m ρ c
set_option maxHeartbeats 4000000 in
theorem W5_nrm (c : Dev nD) : W5 m ρ c (Proc.devRef .tc main_v34) = Cert.Gcn.nrm (m ((c : Thread nD τ).loc main_arg1)) := by
  dsimp only [W5, hostOps1]
  after_results_simp
  exact W4_nrm m ρ c

def IsArg5 (b : Ref sig .tc) : Prop :=
  b = main_arg2 ∨ b = main_arg5 ∨ b = main_arg6 ∨ b = main_arg7 ∨ b = main_arg8 ∨ b = main_arg9 ∨ b = main_arg10

set_option maxHeartbeats 16000000 in
theorem W5_arg (c : Dev nD) (b : Ref sig .tc) (hb : IsArg5 b) : W5 m ρ c (Proc.devRef .tc b) = m ((c : Thread nD τ).loc b) := by
  rcases hb with rfl | rfl | rfl | rfl | rfl | rfl | rfl <;>
  · dsimp only [W5, hostOps1]
    after_results_simp
    exact W4_arg m ρ c _ (by unfold IsArg4; simp)

/-! ## Across the second call and before the third -/

theorem W6_src (c : Dev nD) : W6 m ρ c (Proc.devRef .tc main_v3) = Cert.Gcn.srcRaw (m ((c : Thread nD τ).loc main_arg1)) :=
  (W6_of_ne m ρ c main_v3 (by decide)).trans (W5_src m ρ c)
theorem W6_dst (c : Dev nD) : W6 m ρ c (Proc.devRef .tc main_v6) = Cert.Gcn.dstRaw (m ((c : Thread nD τ).loc main_arg1)) :=
  (W6_of_ne m ρ c main_v6 (by decide)).trans (W5_dst m ρ c)
theorem W6_nrm (c : Dev nD) : W6 m ρ c (Proc.devRef .tc main_v34) = Cert.Gcn.nrm (m ((c : Thread nD τ).loc main_arg1)) :=
  (W6_of_ne m ρ c main_v34 (by decide)).trans (W5_nrm m ρ c)

def IsArg6 (b : Ref sig .tc) : Prop :=
  b = main_arg2 ∨ b = main_arg6 ∨ b = main_arg7 ∨ b = main_arg8 ∨ b = main_arg9 ∨ b = main_arg10

theorem W6_arg (c : Dev nD) (b : Ref sig .tc) (hb : IsArg6 b) : W6 m ρ c (Proc.devRef .tc b) = m ((c : Thread nD τ).loc b) := by
  rcases hb with rfl | rfl | rfl | rfl | rfl | rfl
  · exact (W6_of_ne m ρ c main_arg2 (by decide)).trans (W5_arg m ρ c _ (by unfold IsArg5; simp))
  · exact (W6_of_ne m ρ c main_arg6 (by decide)).trans (W5_arg m ρ c _ (by unfold IsArg5; simp))
  · exact (W6_of_ne m ρ c main_arg7 (by decide)).trans (W5_arg m ρ c _ (by unfold IsArg5; simp))
  · exact (W6_of_ne m ρ c main_arg8 (by decide)).trans (W5_arg m ρ c _ (by unfold IsArg5; simp))
  · exact (W6_of_ne m ρ c main_arg9 (by decide)).trans (W5_arg m ρ c _ (by unfold IsArg5; simp))
  · exact (W6_of_ne m ρ c main_arg10 (by decide)).trans (W5_arg m ρ c _ (by unfold IsArg5; simp))

set_option maxHeartbeats 4000000 in
/-- Before the third call: one aggregation of the second call's array. -/
theorem W7_agg (c : Dev nD) :
    W7 m ρ c (Proc.devRef .tc main_v73) = Cert.Gcn.agg (m ((c : Thread nD τ).loc main_arg1)) (W6 m ρ c (Proc.devRef .tc main_v55)) := by
  dsimp only [W7, hostOps2]
  after_results_simp
  rw [W6_src, W6_dst, W6_nrm]
  rfl

set_option maxHeartbeats 4000000 in
/-- Before the third call: the second bias as a one-row matrix. -/
theorem W7_bias (c : Dev nD) :
    W7 m ρ c (Proc.devRef .tc main_v74) = shapeCast S1x64 (m ((c : Thread nD τ).loc main_arg6) : (⟨S64, .f32⟩ : BufTy).Contents (Elt F)) shapeCasts_S64_S1x64 := by
  dsimp only [W7, hostOps2]
  after_results_simp
  rw [W6_arg m ρ c main_arg6 (by unfold IsArg6; simp)]
  rfl

def IsArg7 (b : Ref sig .tc) : Prop :=
  b = main_arg2 ∨ b = main_arg7 ∨ b = main_arg8 ∨ b = main_arg9 ∨ b = main_arg10

set_option maxHeartbeats 16000000 in
theorem W7_arg (c : Dev nD) (b : Ref sig .tc) (hb : IsArg7 b) : W7 m ρ c (Proc.devRef .tc b) = m ((c : Thread nD τ).loc b) := by
  rcases hb with rfl | rfl | rfl | rfl | rfl <;>
  · dsimp only [W7, hostOps2]
    after_results_simp
    exact W6_arg m ρ c _ (by unfold IsArg6; simp)

/-! ## Across the third call and before the fourth -/

theorem W8_arg (c : Dev nD) (b : Ref sig .tc) (hb : IsArg7 b) : W8 m ρ c (Proc.devRef .tc b) = m ((c : Thread nD τ).loc b) := by
  rcases hb with rfl | rfl | rfl | rfl | rfl
  · exact (W8_of_ne m ρ c main_arg2 (by decide)).trans (W7_arg m ρ c _ (by unfold IsArg7; simp))
  · exact (W8_of_ne m ρ c main_arg7 (by decide)).trans (W7_arg m ρ c _ (by unfold IsArg7; simp))
  · exact (W8_of_ne m ρ c main_arg8 (by decide)).trans (W7_arg m ρ c _ (by unfold IsArg7; simp))
  · exact (W8_of_ne m ρ c main_arg9 (by decide)).trans (W7_arg m ρ c _ (by unfold IsArg7; simp))
  · exact (W8_of_ne m ρ c main_arg10 (by decide)).trans (W7_arg m ρ c _ (by unfold IsArg7; simp))

set_option maxHeartbeats 4000000 in
/-- Before the fourth call: the per-graph mean of the third call's array. -/
theorem W9_pool (c : Dev nD) :
    W9 m ρ c (Proc.devRef .tc main_v97) = Cert.Gcn.pool (m ((c : Thread nD τ).loc main_arg2)) (W8 m ρ c (Proc.devRef .tc main_v75)) := by
  dsimp only [W9, hostOps3]
  after_results_simp
  rw [W8_arg m ρ c main_arg2 (by unfold IsArg7; simp)]
  rfl

set_option maxHeartbeats 4000000 in
/-- Before the fourth call: the head's first bias as a one-row matrix. -/
theorem W9_bias (c : Dev nD) :
    W9 m ρ c (Proc.devRef .tc main_v98) = shapeCast S1x64 (m ((c : Thread nD τ).loc main_arg8) : (⟨S64, .f32⟩ : BufTy).Contents (Elt F)) shapeCasts_S64_S1x64 := by
  dsimp only [W9, hostOps3]
  after_results_simp
  rw [W8_arg m ρ c main_arg8 (by unfold IsArg7; simp)]
  rfl

set_option maxHeartbeats 4000000 in
/-- Before the fourth call: the head's second bias as a one-row matrix. -/
theorem W9_bias' (c : Dev nD) :
    W9 m ρ c (Proc.devRef .tc main_v99) = shapeCast S1x16 (m ((c : Thread nD τ).loc main_arg10) : (⟨S16, .f32⟩ : BufTy).Contents (Elt F)) shapeCasts_S16_S1x16 := by
  dsimp only [W9, hostOps3]
  after_results_simp
  rw [W8_arg m ρ c main_arg10 (by unfold IsArg7; simp)]
  rfl

set_option maxHeartbeats 4000000 in
theorem W9_w (c : Dev nD) : W9 m ρ c (Proc.devRef .tc main_arg7) = m ((c : Thread nD τ).loc main_arg7) := by
  dsimp only [W9, hostOps3]
  after_results_simp
  exact W8_arg m ρ c _ (by unfold IsArg7; simp)

set_option maxHeartbeats 4000000 in
theorem W9_w' (c : Dev nD) : W9 m ρ c (Proc.devRef .tc main_arg9) = m ((c : Thread nD τ).loc main_arg9) := by
  dsimp only [W9, hostOps3]
  after_results_simp
  exact W8_arg m ρ c _ (by unfold IsArg7; simp)

end Cert.KernelIdeal.Host

end
-- ==== Proof.LibPlainDot.lean ====
/-
  A plain matrix product read at an index.

  For the dimension numbers of an [M, K] by [K, N] product with no batch axis (`DotDims.plain`), the contraction index
  is one coordinate `k : Fin K`, the left operand is read at (r, k) and the right one at (k, q). So at the exact
  (extended-real) values both the matrix unit's product into a zero accumulator and the host's `dot_general` are, at
  output index (r, q), the plain sum over `k` of `lhs (r, k) * rhs (k, q)`.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {φ₁ φ₂ : FTy}

/-- The contraction shape of a plain product has one axis … -/
theorem contr_rank (M K N : Nat) : (DotDims.plain M K N).contr.rank = 1 := rfl
/-- … of extent `K`. -/
theorem contr_size (M K N : Nat) : (DotDims.plain M K N).contr.size ⟨0, by rw [contr_rank]; exact Nat.one_pos⟩ = K := rfl

/-- The contraction index of a plain product as its one coordinate. -/
abbrev kEquiv (M K N : Nat) : (DotDims.plain M K N).contr.Idx ≃ Fin K :=
  contrEquiv1 (DotDims.plain M K N) K (contr_rank M K N) (contr_size M K N)

/-- The left operand's index at output (r, q) and contraction coordinate k is (r, k). -/
theorem lhsIdx_eq {M K N : Nat} (r : Fin M) (q : Fin N) (k : Fin K) :
    (DotDims.plain M K N).lhsIdx (ix2 r q) ((kEquiv M K N).symm k) = ix2 r k := by
  have hk := contrEquiv1_symm_val (DotDims.plain M K N) K (contr_rank M K N) (contr_size M K N) k
  funext a
  refine Fin.ext ?_
  match a with
  | ⟨0, _⟩ => rfl
  | ⟨1, _⟩ => exact ((DotDims.plain M K N).lhsIdx_val_of_single rfl (ix2 r q) _).trans hk

/-- The right operand's index at output (r, q) and contraction coordinate k is (k, q). -/
theorem rhsIdx_eq {M K N : Nat} (r : Fin M) (q : Fin N) (k : Fin K) :
    (DotDims.plain M K N).rhsIdx (ix2 r q) ((kEquiv M K N).symm k) = ix2 k q := by
  have hk := contrEquiv1_symm_val (DotDims.plain M K N) K (contr_rank M K N) (contr_size M K N) k
  funext a
  refine Fin.ext ?_
  match a with
  | ⟨0, _⟩ => exact ((DotDims.plain M K N).rhsIdx_val_of_single rfl (ix2 r q) _).trans hk
  | ⟨1, _⟩ => rfl

/-- The matrix unit's product into a zero accumulator, at (r, q): the sum over k of lhs (r, k) * rhs (k, q). -/
theorem matmul_zero_apply {M K N : Nat} (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (kEquiv M K N).symm]
  exact Finset.sum_congr rfl fun k _ => by rw [lhsIdx_eq, rhsIdx_eq]

/-- The host's `dot_general` of the same dimension numbers, at (r, q): the same sum. -/
theorem dotGeneral_apply {M K N : Nat} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (kEquiv M K N).symm]
  exact Finset.sum_congr rfl fun k _ => by rw [lhsIdx_eq, rhsIdx_eq]

end Idealize.ShloMosaic.PlainDot

end
-- ==== Proof.Region0.lean ====
/-
  The first call, x · W1 over 20 row blocks of 5000 rows: the array it leaves is the node-wise product `lin x W1`.

  At point t the call reads rows 5000 t … 5000 t + 4999 of x and the whole of W1 and writes the same rows of the result.
  Entry (p, q) of what it writes is the sum over k of x(5000 t + p, k) · W1(k, q) — the rounding of the operands to bf16 is
  the identity on exact values — which is entry (5000 t + p, q) of the whole product. The 20 blocks cover every row.
-/
import proofs.«114673_j12034498363886_1_alg».proof.Proof.Gen.KernelIdeal.Frame
import proofs.«114673_j12034498363886_1_alg».proof.Proof.Spec
import proofs.«114673_j12034498363886_1_alg».proof.Proof.LibPlainDot
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable [Cert.ReferenceIdeal.Facts₀]

theorem hz : (![0, 0] : Fin 2 → Nat) = fun _ => 0 := funext fun a => by fin_cases a <;> rfl

/-- The block's product at (p, q): the sum over k of x(p, k) · w(k, q). -/
theorem pay_apply (x : Vec Ideal S5000x64 .f32) (w : Vec Ideal S64x64 .f32) (p : Fin 5000) (q : Fin 64) :
    k0_pay1 x w (ix2 p q) = ∑ k : Fin 64, x (ix2 p k) * w (ix2 k q) := by
  unfold k0_pay1
  exact PlainDot.matmul_zero_apply (M := 5000) (K := 64) (N := 64) (φ₁ := .bf16) (φ₂ := .bf16) none _ _ p q

/-- The whole product at (r, q): the same sum over the whole arrays. -/
theorem lin_apply (h : (⟨Cert.ReferenceIdeal.S100000x64, .f32⟩ : BufTy).Contents (Elt Ideal)) (w : (⟨Cert.ReferenceIdeal.S64x64, .f32⟩ : BufTy).Contents (Elt Ideal))
    (r : Fin 100000) (q : Fin 64) :
    Cert.Gcn.lin h w (ix2 r q) = ∑ k : Fin 64, h (ix2 r k) * w (ix2 k q) := by
  unfold Cert.Gcn.lin
  exact PlainDot.dotGeneral_apply (M := 100000) (K := 64) (N := 64) (φ₁ := .f32) (φ₂ := .f32) none _ h w r q

variable (V : (c : Dev nD) → (b : Ref sig .tc) → Buf (Elt Ideal) ((c : Thread nD τ).loc b))

/-- The printed index maps over the grid: the row blocks move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

theorem t_lt (t : Fin cfg0.N) : t.val < 20 := by
  have h : t.val < cfg0.N := t.isLt
  have e : cfg0.N = 20 := N_0
  omega

/-- What point t writes back is block t of the whole product. -/
theorem flushed_eq (c : Dev nD) (t : Fin cfg0.N) :
    (dat0 V c).flushed 2 t = ((cfg0.win 2).blk t).view.read (Elt Ideal) (Cert.Gcn.lin (V c main_arg0) (V c main_arg3)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e0, e1, e2, e3, e4, e5⟩ := idx_facts t
  have ht := t_lt t
  funext j
  obtain ⟨p, q, rfl⟩ : ∃ (p : Fin 5000) (q : Fin 64), j = ix2 p q := ⟨j 0, j 1, eq_ix2 j⟩
  have hp := p.isLt
  have hq := q.isLt
  show k0_pay1 (iblk0 V c 0 t) (iblk0 V c 1 t) (ix2 p q) = Cert.Gcn.lin (V c main_arg0) (V c main_arg3) (((cfg0.win 2).blk t).view.emb (ix2 p q))
  have he : ((cfg0.win 2).blk t).view.emb (ix2 p q) = ix2 (⟨5000 * t.val + p.val, by omega⟩ : Fin 100000) q := by
    funext a; apply Fin.ext
    match a with
    | ⟨0, _⟩ => show win0_2.index t (0 : Fin 2) * 5000 + 1 * p.val = 5000 * t.val + p.val; rw [e4]; omega
    | ⟨1, _⟩ => show win0_2.index t (1 : Fin 2) * 64 + 1 * q.val = q.val; rw [e5]; omega
  rw [he]
  refine (pay_apply _ _ p q).trans ((lin_apply _ _ _ q).trans ?_).symm
  refine Finset.sum_congr rfl fun k _ => ?_
  have hk := k.isLt
  have hx : iblk0 V c 0 t (ix2 p k) = V c main_arg0 (ix2 (⟨5000 * t.val + p.val, by omega⟩ : Fin 100000) k) := by
    show V c main_arg0 (((cfg0.win 0).blk t).view.emb (ix2 p k)) = _
    refine congrArg _ ?_
    funext a; apply Fin.ext
    match a with
    | ⟨0, _⟩ => show win0_0.index t (0 : Fin 2) * 5000 + 1 * p.val = 5000 * t.val + p.val; rw [e0]; omega
    | ⟨1, _⟩ => show win0_0.index t (1 : Fin 2) * 64 + 1 * k.val = k.val; rw [e1]; omega
  have hw : iblk0 V c 1 t (ix2 k q) = V c main_arg3 (ix2 k q) := by
    show V c main_arg3 (((cfg0.win 1).blk t).view.emb (ix2 k q)) = _
    refine congrArg _ ?_
    funext a; apply Fin.ext
    match a with
    | ⟨0, _⟩ => show win0_1.index t (0 : Fin 2) * 64 + 1 * k.val = k.val; rw [e2]; omega
    | ⟨1, _⟩ => show win0_1.index t (1 : Fin 2) * 64 + 1 * q.val = q.val; rw [e3]; omega
  rw [hx, hw]

/-- An index of the array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v35).slice (win0_2.rect t)).set ↔ _
  rw [View.set_slice_whole, Rect.mem_set_unit]
  exact Iff.rfl

/-- Every row is in the block of the point that is its quotient by 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e0, e1, e2, e3, e4, e5⟩ := idx_facts t
  have e4' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4']; omega
  | ⟨1, _⟩ => show win0_2.index t (1 : Fin 2) * 64 ≤ (i 1).val ∧ (i 1).val < win0_2.index t (1 : Fin 2) * 64 + 64; rw [e5]; omega

/-- The array the first call leaves, from any entry contents `V`: the node-wise product of the two arrays it reads. -/
theorem final (c : Dev nD) : (dat0 V c).arrAt 2 cfg0.N = Cert.Gcn.lin (V c main_arg0) (V c main_arg3) :=
  (dat0 V c).arrAt_eq_of_cover 2 (Cert.Gcn.lin (V c main_arg0) (V c main_arg3)) (fun t _ => flushed_eq V c t) (cover)

end Cert.KernelIdeal.Region0

end
-- ==== Proof.LibBiasRows.lean ====
/-
  A bias vector laid along every row of a matrix, in its two spellings.

  A host program broadcasts the vector [n] to one row [1, n] (along axis 1) and that row down m rows. A kernel receives
  the vector already cast to one row [1, n], casts it to the same shape once more, and broadcasts it down m rows. Both
  read, at (r, q), the vector at q; so the two m × n arrays are equal.
-/
import Idealize.ShloMosaic.Lib.ValueLayout
import Idealize.ShloMosaic.Lib.KernelVsHost

namespace Idealize.ShloMosaic.BiasRows

open Idealize.ShloMosaic Idealize.ShloMosaic.ValueIdx

variable {α : Type}

/-- The host's spelling at (r, q): the vector at q. -/
theorem hostRows_apply {m n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (q : Fin n) :
    broadcastInDim ⟨2, ![m, n]⟩ ![0, 1] h2 (broadcastInDim ⟨2, ![1, n]⟩ ![1] h1 b) (ix2 r q) = b (ix1 q) := by
  rw [broadcastInDim_oneRow_apply]
  refine broadcastInDim_apply ![1] h1 b (ix2 (0 : Fin 1) q) (ix1 q) ?_
  intro a
  match a with
  | ⟨0, _⟩ =>
    show q.val = if n = 1 then 0 else q.val
    split
    · have := q.isLt; omega
    · rfl

/-- The kernel's spelling at (r, q): the vector at q. -/
theorem kernelRows_apply {m n : Nat} (b : (⟨1, ![n]⟩ : Shape).Idx → α)
    (h0 : (⟨1, ![n]⟩ : Shape).ShapeCasts ⟨2, ![1, n]⟩) (h1 : (⟨2, ![1, n]⟩ : Shape).ShapeCasts ⟨2, ![1, n]⟩)
    (hb : (⟨2, ![1, n]⟩ : Shape).Broadcasts ⟨2, ![m, n]⟩) (r : Fin m) (q : Fin n) :
    broadcastTo ⟨2, ![m, n]⟩ (shapeCast ⟨2, ![1, n]⟩ (shapeCast ⟨2, ![1, n]⟩ b h0) h1) hb (ix2 r q) = b (ix1 q) := by
  rw [broadcastTo_1b_ab_apply, shapeCast_self, shapeCast_a_1a_apply]

/-- The two spellings are one m × n array. -/
theorem kernelRows_eq_hostRows {m n : Nat} (b : (⟨1, ![n]⟩ : Shape).Idx → α)
    (h0 : (⟨1, ![n]⟩ : Shape).ShapeCasts ⟨2, ![1, n]⟩) (h1 : (⟨2, ![1, n]⟩ : Shape).ShapeCasts ⟨2, ![1, n]⟩)
    (hb : (⟨2, ![1, n]⟩ : Shape).Broadcasts ⟨2, ![m, n]⟩)
    (g1 : (⟨1, ![n]⟩ : Shape).BroadcastsInDim ⟨2, ![1, n]⟩ ![1])
    (g2 : (⟨2, ![1, n]⟩ : Shape).BroadcastsInDim ⟨2, ![m, n]⟩ ![0, 1]) :
    broadcastTo ⟨2, ![m, n]⟩ (shapeCast ⟨2, ![1, n]⟩ (shapeCast ⟨2, ![1, n]⟩ b h0) h1) hb
      = broadcastInDim ⟨2, ![m, n]⟩ ![0, 1] g2 (broadcastInDim ⟨2, ![1, n]⟩ ![1] g1 b) := by
  funext j
  obtain ⟨r, q, rfl⟩ : ∃ (r : Fin m) (q : Fin n), j = ix2 r q := ⟨j 0, j 1, eq_ix2 j⟩
  rw [kernelRows_apply, hostRows_apply]

end Idealize.ShloMosaic.BiasRows
-- ==== Proof.Region1.lean ====
/-
  The second call, relu(a + b1) · W2 over 20 row blocks of 5000 rows: the array it leaves is `lin (act a b1) W2`.

  At point t the call reads rows 5000 t … 5000 t + 4999 of a, the bias as one row and the whole of W2, and writes the
  same rows of the result. Entry (p, q) of what it writes is the sum over k of max(a(5000 t + p, k) + b(k), 0) · W2(k, q),
  which is entry (5000 t + p, q) of the whole product of the activated array with W2.
-/
import proofs.«114673_j12034498363886_1_alg».proof.Proof.Gen.KernelIdeal.Frame
import proofs.«114673_j12034498363886_1_alg».proof.Proof.Spec
import proofs.«114673_j12034498363886_1_alg».proof.Proof.LibPlainDot
import proofs.«114673_j12034498363886_1_alg».proof.Proof.LibBiasRows
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable [Cert.ReferenceIdeal.Facts₀]

theorem hz : (![0, 0] : Fin 2 → Nat) = fun _ => 0 := funext fun a => by fin_cases a <;> rfl

/-- The block's value at (p, q) when the bias row is the cast of a vector: the sum over k of max(x(p, k) + b(k), 0) · w(k, q). -/
theorem pay_apply (x : Vec Ideal S5000x64 .f32) (b : (⟨1, ![64]⟩ : Shape).Idx → Ideal .f32) (w : Vec Ideal S64x64 .f32) (p : Fin 5000) (q : Fin 64) :
    k1_pay1 x (shapeCast S1x64 b shapeCasts_S64_S1x64) w (ix2 p q)
      = ∑ k : Fin 64, max (x (ix2 p k) + b (ix1 k)) (Scalar.ofBits (F := Ideal) .f32 0x00000000#32) * w (ix2 k q) := by
  unfold k1_pay1
  refine (PlainDot.matmul_zero_apply (M := 5000) (K := 64) (N := 64) (φ₁ := .bf16) (φ₂ := .bf16) none _ _ p q).trans ?_
  refine Finset.sum_congr rfl fun k _ => ?_
  show max (shapeCast S5000x64 x _ (ix2 p k) + broadcastTo S5000x64 (shapeCast S1x64 (shapeCast S1x64 b _) _) _ (ix2 p k)) _ * w (ix2 k q) = _
  rw [shapeCast_self]
  rw [BiasRows.kernelRows_apply (m := 5000) (n := 64)]
  rfl

/-- The whole array's value at (r, q): the same sum over the whole arrays. -/
theorem spec_apply (a : (⟨Cert.ReferenceIdeal.S100000x64, .f32⟩ : BufTy).Contents (Elt Ideal)) (b : (⟨Cert.ReferenceIdeal.S64, .f32⟩ : BufTy).Contents (Elt Ideal))
    (w : (⟨Cert.ReferenceIdeal.S64x64, .f32⟩ : BufTy).Contents (Elt Ideal)) (r : Fin 100000) (q : Fin 64) :
    Cert.Gcn.lin (Cert.Gcn.act a b) w (ix2 r q)
      = ∑ k : Fin 64, max (a (ix2 r k) + b (ix1 k)) (Scalar.ofBits (F := Ideal) .f32 0x00000000#32) * w (ix2 k q) := by
  unfold Cert.Gcn.lin
  refine (PlainDot.dotGeneral_apply (M := 100000) (K := 64) (N := 64) (φ₁ := .f32) (φ₂ := .f32) none _ (Cert.Gcn.act a b) w r q).trans ?_
  refine Finset.sum_congr rfl fun k _ => ?_
  unfold Cert.Gcn.act Cert.Gcn.biasRows
  show max (a (ix2 r k) + broadcastInDim Cert.ReferenceIdeal.S100000x64 ![0, 1] _ (broadcastInDim Cert.ReferenceIdeal.S1x64 ![1] _ b) (ix2 r k)) _ * w (ix2 k q) = _
  rw [BiasRows.hostRows_apply (m := 100000) (n := 64)]
  rfl

variable (V : (c : Dev nD) → (b : Ref sig .tc) → Buf (Elt Ideal) ((c : Thread nD τ).loc b))

/-- The printed index maps over the grid: the row blocks move with the point, the bias row and the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0)

theorem t_lt (t : Fin cfg1.N) : t.val < 20 := by
  have h : t.val < cfg1.N := t.isLt
  have e : cfg1.N = 20 := N_1
  omega

/-- The bias window's block is the whole one-row array. -/
theorem bias_blk (c : Dev nD) (t : Fin cfg1.N) : iblk1 V c 1 t = V c main_v54 := by
  obtain ⟨e0, e1, e2, e3, e4, e5, e6, e7⟩ := idx_facts t
  funext y
  show V c main_v54 (((cfg1.win 1).blk t).view.emb y) = V c main_v54 y
  refine congrArg _ ?_
  funext a; apply Fin.ext
  match a with
  | ⟨0, _⟩ => show win1_1.index t (0 : Fin 2) * 1 + 1 * (y 0).val = (y 0).val; rw [e2]; omega
  | ⟨1, _⟩ => show win1_1.index t (1 : Fin 2) * 64 + 1 * (y 1).val = (y 1).val; rw [e3]; omega

/-- The weight window's block is the whole matrix. -/
theorem w_blk (c : Dev nD) (t : Fin cfg1.N) : iblk1 V c 2 t = V c main_arg5 := by
  obtain ⟨e0, e1, e2, e3, e4, e5, e6, e7⟩ := idx_facts t
  funext y
  show V c main_arg5 (((cfg1.win 2).blk t).view.emb y) = V c main_arg5 y
  refine congrArg _ ?_
  funext a; apply Fin.ext
  match a with
  | ⟨0, _⟩ => show win1_2.index t (0 : Fin 2) * 64 + 1 * (y 0).val = (y 0).val; rw [e4]; omega
  | ⟨1, _⟩ => show win1_2.index t (1 : Fin 2) * 64 + 1 * (y 1).val = (y 1).val; rw [e5]; omega

/-- What point t writes back is block t of the whole product. -/
theorem flushed_eq (c : Dev nD) (b : (⟨Cert.ReferenceIdeal.S64, .f32⟩ : BufTy).Contents (Elt Ideal))
    (hb : V c main_v54 = shapeCast S1x64 b shapeCasts_S64_S1x64) (t : Fin cfg1.N) :
    (dat1 V c).flushed 3 t = ((cfg1.win 3).blk t).view.read (Elt Ideal) (Cert.Gcn.lin (Cert.Gcn.act (V c main_v53) b) (V c main_arg5)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x64) hz]
  rw [bias_blk V c t, w_blk V c t, hb]
  obtain ⟨e0, e1, e2, e3, e4, e5, e6, e7⟩ := idx_facts t
  have ht := t_lt t
  funext j
  obtain ⟨p, q, rfl⟩ : ∃ (p : Fin 5000) (q : Fin 64), j = ix2 p q := ⟨j 0, j 1, eq_ix2 j⟩
  have hp := p.isLt
  have hq := q.isLt
  show k1_pay1 (iblk1 V c 0 t) (shapeCast S1x64 b shapeCasts_S64_S1x64) (V c main_arg5) (ix2 p q)
    = Cert.Gcn.lin (Cert.Gcn.act (V c main_v53) b) (V c main_arg5) (((cfg1.win 3).blk t).view.emb (ix2 p q))
  have he : ((cfg1.win 3).blk t).view.emb (ix2 p q) = ix2 (⟨5000 * t.val + p.val, by omega⟩ : Fin 100000) q := by
    funext a; apply Fin.ext
    match a with
    | ⟨0, _⟩ => show win1_3.index t (0 : Fin 2) * 5000 + 1 * p.val = 5000 * t.val + p.val; rw [e6]; omega
    | ⟨1, _⟩ => show win1_3.index t (1 : Fin 2) * 64 + 1 * q.val = q.val; rw [e7]; omega
  rw [he]
  refine (pay_apply _ b _ p q).trans ((spec_apply _ b _ _ q).trans ?_).symm
  refine Finset.sum_congr rfl fun k _ => ?_
  have hk := k.isLt
  have hx : iblk1 V c 0 t (ix2 p k) = V c main_v53 (ix2 (⟨5000 * t.val + p.val, by omega⟩ : Fin 100000) k) := by
    show V c main_v53 (((cfg1.win 0).blk t).view.emb (ix2 p k)) = _
    refine congrArg _ ?_
    funext a; apply Fin.ext
    match a with
    | ⟨0, _⟩ => show win1_0.index t (0 : Fin 2) * 5000 + 1 * p.val = 5000 * t.val + p.val; rw [e0]; omega
    | ⟨1, _⟩ => show win1_0.index t (1 : Fin 2) * 64 + 1 * k.val = k.val; rw [e1]; omega
  rw [hx]

/-- An index of the array is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v55).slice (win1_3.rect t)).set ↔ _
  rw [View.set_slice_whole, Rect.mem_set_unit]
  exact Iff.rfl

/-- Every row is in the block of the point that is its quotient by 5000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0, e1, e2, e3, e4, e5, e6, e7⟩ := idx_facts t
  have e6' : win1_3.index t (0 : Fin 2) = (i 0).val / 5000 := e6
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e6']; omega
  | ⟨1, _⟩ => show win1_3.index t (1 : Fin 2) * 64 ≤ (i 1).val ∧ (i 1).val < win1_3.index t (1 : Fin 2) * 64 + 64; rw [e7]; omega

/-- The array the second call leaves, from any entry contents `V` whose bias row is the cast of a vector b. -/
theorem final (c : Dev nD) (b : (⟨Cert.ReferenceIdeal.S64, .f32⟩ : BufTy).Contents (Elt Ideal))
    (hb : V c main_v54 = shapeCast S1x64 b shapeCasts_S64_S1x64) :
    (dat1 V c).arrAt 3 cfg1.N = Cert.Gcn.lin (Cert.Gcn.act (V c main_v53) b) (V c main_arg5) :=
  (dat1 V c).arrAt_eq_of_cover 3 (Cert.Gcn.lin (Cert.Gcn.act (V c main_v53) b) (V c main_arg5)) (fun t _ => flushed_eq V c b hb t) (cover)

end Cert.KernelIdeal.Region1

end
-- ==== Proof.Region2.lean ====
/-
  The third call, relu(a + b2) over 20 row blocks of 5000 rows: the array it leaves is `act a b2`.

  At point t the call reads rows 5000 t … 5000 t + 4999 of a and the bias as one row, and writes the same rows of the
  result; entry (p, q) of what it writes is max(a(5000 t + p, q) + b(q), 0), which is entry (5000 t + p, q) of `act a b`.
-/
import proofs.«114673_j12034498363886_1_alg».proof.Proof.Gen.KernelIdeal.Frame
import proofs.«114673_j12034498363886_1_alg».proof.Proof.Spec
import proofs.«114673_j12034498363886_1_alg».proof.Proof.LibBiasRows
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable [Cert.ReferenceIdeal.Facts₀]

theorem hz : (![0, 0] : Fin 2 → Nat) = fun _ => 0 := funext fun a => by fin_cases a <;> rfl

/-- The block's value at (p, q) when the bias row is the cast of a vector: max(x(p, q) + b(q), 0). -/
theorem pay_apply (x : Vec Ideal S5000x64 .f32) (b : (⟨1, ![64]⟩ : Shape).Idx → Ideal .f32) (p : Fin 5000) (q : Fin 64) :
    k2_pay1 x (shapeCast S1x64 b shapeCasts_S64_S1x64) (ix2 p q) = max (x (ix2 p q) + b (ix1 q)) (Scalar.ofBits (F := Ideal) .f32 0x00000000#32) := by
  unfold k2_pay1
  show max (shapeCast S5000x64 x _ (ix2 p q) + broadcastTo S5000x64 (shapeCast S1x64 (shapeCast S1x64 b _) _) _ (ix2 p q)) _ = _
  rw [shapeCast_self]
  rw [BiasRows.kernelRows_apply (m := 5000) (n := 64)]
  rfl

/-- The whole array's value at (r, q): the same. -/
theorem act_apply (a : (⟨Cert.ReferenceIdeal.S100000x64, .f32⟩ : BufTy).Contents (Elt Ideal)) (b : (⟨Cert.ReferenceIdeal.S64, .f32⟩ : BufTy).Contents (Elt Ideal))
    (r : Fin 100000) (q : Fin 64) :
    Cert.Gcn.act a b (ix2 r q) = max (a (ix2 r q) + b (ix1 q)) (Scalar.ofBits (F := Ideal) .f32 0x00000000#32) := by
  unfold Cert.Gcn.act Cert.Gcn.biasRows
  show max (a (ix2 r q) + broadcastInDim Cert.ReferenceIdeal.S100000x64 ![0, 1] _ (broadcastInDim Cert.ReferenceIdeal.S1x64 ![1] _ b) (ix2 r q)) _ = _
  rw [BiasRows.hostRows_apply (m := 100000) (n := 64)]
  rfl

variable (V : (c : Dev nD) → (b : Ref sig .tc) → Buf (Elt Ideal) ((c : Thread nD τ).loc b))

/-- The printed index maps over the grid: the row blocks move with the point, the bias row stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0)

theorem t_lt (t : Fin cfg2.N) : t.val < 20 := by
  have h : t.val < cfg2.N := t.isLt
  have e : cfg2.N = 20 := N_2
  omega

/-- The bias window's block is the whole one-row array. -/
theorem bias_blk (c : Dev nD) (t : Fin cfg2.N) : iblk2 V c 1 t = V c main_v74 := by
  obtain ⟨e0, e1, e2, e3, e4, e5⟩ := idx_facts t
  funext y
  show V c main_v74 (((cfg2.win 1).blk t).view.emb y) = V c main_v74 y
  refine congrArg _ ?_
  funext a; apply Fin.ext
  match a with
  | ⟨0, _⟩ => show win2_1.index t (0 : Fin 2) * 1 + 1 * (y 0).val = (y 0).val; rw [e2]; omega
  | ⟨1, _⟩ => show win2_1.index t (1 : Fin 2) * 64 + 1 * (y 1).val = (y 1).val; rw [e3]; omega

/-- What point t writes back is block t of `act a b`. -/
theorem flushed_eq (c : Dev nD) (b : (⟨Cert.ReferenceIdeal.S64, .f32⟩ : BufTy).Contents (Elt Ideal))
    (hb : V c main_v74 = shapeCast S1x64 b shapeCasts_S64_S1x64) (t : Fin cfg2.N) :
    (dat2 V c).flushed 2 t = ((cfg2.win 2).blk t).view.read (Elt Ideal) (Cert.Gcn.act (V c main_v73) b) := by
  show (cfg2.win 2).cut (grid2.coords t) ((dat2 V c).after 2 t) = _
  rw [after2_2]
  unfold out2_2
  rw [View.canon_unit_zero hz]
  simp only [View.ld_unit_zero (S := S5000x64) hz, View.ld_unit_zero (S := S1x64) hz]
  rw [bias_blk V c t, hb]
  obtain ⟨e0, e1, e2, e3, e4, e5⟩ := idx_facts t
  have ht := t_lt t
  funext j
  obtain ⟨p, q, rfl⟩ : ∃ (p : Fin 5000) (q : Fin 64), j = ix2 p q := ⟨j 0, j 1, eq_ix2 j⟩
  have hp := p.isLt
  have hq := q.isLt
  show k2_pay1 (iblk2 V c 0 t) (shapeCast S1x64 b shapeCasts_S64_S1x64) (ix2 p q) = Cert.Gcn.act (V c main_v73) b (((cfg2.win 2).blk t).view.emb (ix2 p q))
  have he : ((cfg2.win 2).blk t).view.emb (ix2 p q) = ix2 (⟨5000 * t.val + p.val, by omega⟩ : Fin 100000) q := by
    funext a; apply Fin.ext
    match a with
    | ⟨0, _⟩ => show win2_2.index t (0 : Fin 2) * 5000 + 1 * p.val = 5000 * t.val + p.val; rw [e4]; omega
    | ⟨1, _⟩ => show win2_2.index t (1 : Fin 2) * 64 + 1 * q.val = q.val; rw [e5]; omega
  rw [he]
  refine (pay_apply _ b p q).trans ((act_apply _ b _ q).trans ?_).symm
  have hx : iblk2 V c 0 t (ix2 p q) = V c main_v73 (ix2 (⟨5000 * t.val + p.val, by omega⟩ : Fin 100000) q) := by
    show V c main_v73 (((cfg2.win 0).blk t).view.emb (ix2 p q)) = _
    refine congrArg _ ?_
    funext a; apply Fin.ext
    match a with
    | ⟨0, _⟩ => show win2_0.index t (0 : Fin 2) * 5000 + 1 * p.val = 5000 * t.val + p.val; rw [e0]; omega
    | ⟨1, _⟩ => show win2_0.index t (1 : Fin 2) * 64 + 1 * q.val = q.val; rw [e1]; omega
  rw [hx]

/-- An index of the array is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v75).slice (win2_2.rect t)).set ↔ _
  rw [View.set_slice_whole, Rect.mem_set_unit]
  exact Iff.rfl

/-- Every row is in the block of the point that is its quotient by 5000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e0, e1, e2, e3, e4, e5⟩ := idx_facts t
  have e4' : win2_2.index t (0 : Fin 2) = (i 0).val / 5000 := e4
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4']; omega
  | ⟨1, _⟩ => show win2_2.index t (1 : Fin 2) * 64 ≤ (i 1).val ∧ (i 1).val < win2_2.index t (1 : Fin 2) * 64 + 64; rw [e5]; omega

/-- The array the third call leaves, from any entry contents `V` whose bias row is the cast of a vector b. -/
theorem final (c : Dev nD) (b : (⟨Cert.ReferenceIdeal.S64, .f32⟩ : BufTy).Contents (Elt Ideal))
    (hb : V c main_v74 = shapeCast S1x64 b shapeCasts_S64_S1x64) :
    (dat2 V c).arrAt 2 cfg2.N = Cert.Gcn.act (V c main_v73) b :=
  (dat2 V c).arrAt_eq_of_cover 2 (Cert.Gcn.act (V c main_v73) b) (fun t _ => flushed_eq V c b hb t) (cover)

end Cert.KernelIdeal.Region2

end
-- ==== Proof.Region3.lean ====
/-
  The fourth call, the head on the pooled rows, in one grid point over whole arrays: the array it leaves is
  `head p W b W' b'`.

  The body's value is relu(p · W + b) · W' + b' with each product accumulated into a zero array and each bias given as
  one row: a product into a zero accumulator is the host's product, the rounding of the operands to bf16 is the identity
  on exact values, and a one-row bias laid down the rows is the host's two broadcasts of the vector.
-/
import proofs.«114673_j12034498363886_1_alg».proof.Proof.Gen.KernelIdeal.Frame
import proofs.«114673_j12034498363886_1_alg».proof.Proof.Spec
import proofs.«114673_j12034498363886_1_alg».proof.Proof.LibBiasRows
import Idealize.ShloMosaic.Lib.Pipeline.Value
import Idealize.ShloMosaic.Lib.ValueIdx
import Idealize.ShloMosaic.Lib.KernelVsHost

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

variable [Cert.ReferenceIdeal.Facts₀]

theorem hz : (![0, 0] : Fin 2 → Nat) = fun _ => 0 := funext fun a => by fin_cases a <;> rfl

/-- The body's value on whole arrays, the two biases the casts of vectors, is the head. -/
theorem pay_eq (p : Vec Ideal S512x64 .f32) (w : Vec Ideal S64x64 .f32) (b : (⟨1, ![64]⟩ : Shape).Idx → Ideal .f32)
    (w' : Vec Ideal S64x16 .f32) (b' : (⟨1, ![16]⟩ : Shape).Idx → Ideal .f32) :
    k3_pay1 p w (shapeCast S1x64 b shapeCasts_S64_S1x64) w' (shapeCast S1x16 b' shapeCasts_S16_S1x16) = Cert.Gcn.head p w b w' b' := by
  unfold k3_pay1 Cert.Gcn.head
  dsimp only
  rw [shapeCast_self p, matmul_zero_eq_dotGeneral, matmul_zero_eq_dotGeneral,
    BiasRows.kernelRows_eq_hostRows (m := 512) (n := 64) b _ _ _ Cert.ReferenceIdeal.Facts₀.bcast_S64_S1x64_1 Cert.ReferenceIdeal.Facts₀.bcast_S1x64_S512x64_0_1,
    BiasRows.kernelRows_eq_hostRows (m := 512) (n := 16) b' _ _ _ Cert.ReferenceIdeal.Facts₀.bcast_S16_S1x16_1 Cert.ReferenceIdeal.Facts₀.bcast_S1x16_S512x16_0_1]
  rfl

variable (V : (c : Dev nD) → (b : Ref sig .tc) → Buf (Elt Ideal) ((c : Thread nD τ).loc b))

/-- The printed index maps at the grid's points: every window's block is at (0, 0). -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0)

/-- Each input window's block is its whole array. -/
theorem blk0 (c : Dev nD) (t : Fin cfg3.N) : iblk3 V c 0 t = V c main_v97 := by
  obtain ⟨e0, e1, -⟩ := idx_facts t
  funext y
  show V c main_v97 (((cfg3.win 0).blk t).view.emb y) = V c main_v97 y
  refine congrArg _ ?_
  funext a; apply Fin.ext
  match a with
  | ⟨0, _⟩ => show win3_0.index t (0 : Fin 2) * 512 + 1 * (y 0).val = (y 0).val; rw [e0]; omega
  | ⟨1, _⟩ => show win3_0.index t (1 : Fin 2) * 64 + 1 * (y 1).val = (y 1).val; rw [e1]; omega
theorem blk1 (c : Dev nD) (t : Fin cfg3.N) : iblk3 V c 1 t = V c main_arg7 := by
  obtain ⟨-, -, e0, e1, -⟩ := idx_facts t
  funext y
  show V c main_arg7 (((cfg3.win 1).blk t).view.emb y) = V c main_arg7 y
  refine congrArg _ ?_
  funext a; apply Fin.ext
  match a with
  | ⟨0, _⟩ => show win3_1.index t (0 : Fin 2) * 64 + 1 * (y 0).val = (y 0).val; rw [e0]; omega
  | ⟨1, _⟩ => show win3_1.index t (1 : Fin 2) * 64 + 1 * (y 1).val = (y 1).val; rw [e1]; omega
theorem blk2 (c : Dev nD) (t : Fin cfg3.N) : iblk3 V c 2 t = V c main_v98 := by
  obtain ⟨-, -, -, -, e0, e1, -⟩ := idx_facts t
  funext y
  show V c main_v98 (((cfg3.win 2).blk t).view.emb y) = V c main_v98 y
  refine congrArg _ ?_
  funext a; apply Fin.ext
  match a with
  | ⟨0, _⟩ => show win3_2.index t (0 : Fin 2) * 1 + 1 * (y 0).val = (y 0).val; rw [e0]; omega
  | ⟨1, _⟩ => show win3_2.index t (1 : Fin 2) * 64 + 1 * (y 1).val = (y 1).val; rw [e1]; omega
theorem blk3 (c : Dev nD) (t : Fin cfg3.N) : iblk3 V c 3 t = V c main_arg9 := by
  obtain ⟨-, -, -, -, -, -, e0, e1, -⟩ := idx_facts t
  funext y
  show V c main_arg9 (((cfg3.win 3).blk t).view.emb y) = V c main_arg9 y
  refine congrArg _ ?_
  funext a; apply Fin.ext
  match a with
  | ⟨0, _⟩ => show win3_3.index t (0 : Fin 2) * 64 + 1 * (y 0).val = (y 0).val; rw [e0]; omega
  | ⟨1, _⟩ => show win3_3.index t (1 : Fin 2) * 16 + 1 * (y 1).val = (y 1).val; rw [e1]; omega
theorem blk4 (c : Dev nD) (t : Fin cfg3.N) : iblk3 V c 4 t = V c main_v99 := by
  obtain ⟨-, -, -, -, -, -, -, -, e0, e1, -⟩ := idx_facts t
  funext y
  show V c main_v99 (((cfg3.win 4).blk t).view.emb y) = V c main_v99 y
  refine congrArg _ ?_
  funext a; apply Fin.ext
  match a with
  | ⟨0, _⟩ => show win3_4.index t (0 : Fin 2) * 1 + 1 * (y 0).val = (y 0).val; rw [e0]; omega
  | ⟨1, _⟩ => show win3_4.index t (1 : Fin 2) * 16 + 1 * (y 1).val = (y 1).val; rw [e1]; omega

/-- What the one point writes back is the whole head, read through the whole-array block. -/
theorem flushed_eq (c : Dev nD) (b : (⟨Cert.ReferenceIdeal.S64, .f32⟩ : BufTy).Contents (Elt Ideal)) (b' : (⟨Cert.ReferenceIdeal.S16, .f32⟩ : BufTy).Contents (Elt Ideal))
    (hb : V c main_v98 = shapeCast S1x64 b shapeCasts_S64_S1x64) (hb' : V c main_v99 = shapeCast S1x16 b' shapeCasts_S16_S1x16) (t : Fin cfg3.N) :
    (dat3 V c).flushed 5 t = ((cfg3.win 5).blk t).view.read (Elt Ideal) (Cert.Gcn.head (V c main_v97) (V c main_arg7) b (V c main_arg9) b') := by
  show (cfg3.win 5).cut (grid3.coords t) ((dat3 V c).after 5 t) = _
  rw [after3_5]
  unfold out3_5
  rw [View.canon_unit_zero hz]
  simp only [View.ld_unit_zero (S := S512x64) hz, View.ld_unit_zero (S := S64x64) hz, View.ld_unit_zero (S := S1x64) hz,
    View.ld_unit_zero (S := S64x16) hz, View.ld_unit_zero (S := S1x16) hz]
  rw [blk0 V c t, blk1 V c t, blk2 V c t, blk3 V c t, blk4 V c t, hb, hb', pay_eq]
  obtain ⟨-, -, -, -, -, -, -, -, -, -, e0, e1⟩ := idx_facts t
  funext y
  show Cert.Gcn.head (V c main_v97) (V c main_arg7) b (V c main_arg9) b' y = Cert.Gcn.head (V c main_v97) (V c main_arg7) b (V c main_arg9) b' (((cfg3.win 5).blk t).view.emb y)
  refine congrArg _ (Eq.symm ?_)
  funext a; apply Fin.ext
  match a with
  | ⟨0, _⟩ => show win3_5.index t (0 : Fin 2) * 512 + 1 * (y 0).val = (y 0).val; rw [e0]; omega
  | ⟨1, _⟩ => show win3_5.index t (1 : Fin 2) * 16 + 1 * (y 1).val = (y 1).val; rw [e1]; omega

/-- An index of the array is in point t's block iff each coordinate is in the block's range on its axis. -/
theorem mem_blk (t : Fin cfg3.N) (i : S512x16.Idx) :
    i ∈ ((cfg3.win 5).blk t).view.set ↔ ∀ a : Fin 2, win3_5.index t a * S512x16.size a ≤ (i a).val ∧ (i a).val < win3_5.index t a * S512x16.size a + S512x16.size a := by
  show i ∈ ((View.whole main_v100).slice (win3_5.rect t)).set ↔ _
  rw [View.set_slice_whole, Rect.mem_set_unit]
  exact Iff.rfl

/-- The one block is the whole array. -/
theorem cover (i : S512x16.Idx) : ∃ t : Fin cfg3.N, (cfg3.win 5).flush t = true ∧ i ∈ ((cfg3.win 5).blk t).view.set := by
  have hi0 : (i 0).val < 512 := (i 0).isLt
  have hi1 : (i 1).val < 16 := (i 1).isLt
  obtain ⟨-, -, -, -, -, -, -, -, -, -, e0, e1⟩ := idx_facts t3_0
  refine ⟨t3_0, flush3_5 t3_0, ?_⟩
  rw [mem_blk]
  intro a
  match a with
  | ⟨0, _⟩ => show win3_5.index t3_0 (0 : Fin 2) * 512 ≤ (i 0).val ∧ (i 0).val < win3_5.index t3_0 (0 : Fin 2) * 512 + 512; rw [e0]; omega
  | ⟨1, _⟩ => show win3_5.index t3_0 (1 : Fin 2) * 16 ≤ (i 1).val ∧ (i 1).val < win3_5.index t3_0 (1 : Fin 2) * 16 + 16; rw [e1]; omega

/-- The array the fourth call leaves, from any entry contents `V` whose two bias rows are the casts of vectors. -/
theorem final (c : Dev nD) (b : (⟨Cert.ReferenceIdeal.S64, .f32⟩ : BufTy).Contents (Elt Ideal)) (b' : (⟨Cert.ReferenceIdeal.S16, .f32⟩ : BufTy).Contents (Elt Ideal))
    (hb : V c main_v98 = shapeCast S1x64 b shapeCasts_S64_S1x64) (hb' : V c main_v99 = shapeCast S1x16 b' shapeCasts_S16_S1x16) :
    (dat3 V c).arrAt 5 cfg3.N = Cert.Gcn.head (V c main_v97) (V c main_arg7) b (V c main_arg9) b' :=
  (dat3 V c).arrAt_eq_of_cover 5 (Cert.Gcn.head (V c main_v97) (V c main_arg7) b (V c main_arg9) b') (fun t _ => flushed_eq V c b b' hb hb' t) (cover)

end Cert.KernelIdeal.Region3

end
-- ==== Proof.Kernel.lean ====
/-
  The idealized kernel program's result is the network `G` of its eleven arguments.

  Read backwards from the result buffer: the fourth call leaves the head of its pooled input; the pooled input is the
  per-graph mean of what the third call leaves, which is the activation of one aggregation of what the second call
  leaves, which is the node-wise product, with the second weights, of the activation of one aggregation of what the
  first call leaves: the node-wise product of x with the first weights.
-/
import proofs.«114673_j12034498363886_1_alg».proof.Proof.KRun
import proofs.«114673_j12034498363886_1_alg».proof.Proof.KHost
import proofs.«114673_j12034498363886_1_alg».proof.Proof.Region0
import proofs.«114673_j12034498363886_1_alg».proof.Proof.Region1
import proofs.«114673_j12034498363886_1_alg».proof.Proof.Region2
import proofs.«114673_j12034498363886_1_alg».proof.Proof.Region3

set_option maxRecDepth 16384

noncomputable section

namespace Cert.KernelIdeal.Named

open Cert.KernelIdeal Cert.KernelIdeal.Gen Cert.KernelIdeal.Host
open Idealize.ShloMosaic Idealize.ShloMosaic.TcCoe Idealize.SL.Sem

variable [Cert.ReferenceIdeal.Facts₀]
variable (m : (ℓ : Loc nD τ sig) → Buf (Elt Ideal) ℓ) (ρ : Dev nD → PrngReg)

/-- What the first call leaves: x · W1. -/
theorem after_call0 (c : Dev nD) :
    W4 m ρ c (Proc.devRef .tc main_v35) = Cert.Gcn.lin (m ((c : Thread nD τ).loc main_arg0)) (m ((c : Thread nD τ).loc main_arg3)) := by
  refine (W4_arr m ρ c 2).trans ((Region0.final (V3 m ρ) c).trans ?_)
  show Cert.Gcn.lin (W3 m ρ c (Proc.devRef .tc main_arg0)) (W3 m ρ c (Proc.devRef .tc main_arg3)) = _
  rw [W3_arg m ρ c main_arg0 (by unfold IsArg; simp), W3_arg m ρ c main_arg3 (by unfold IsArg; simp)]

/-- What the second call leaves. -/
theorem after_call1 (c : Dev nD) :
    W6 m ρ c (Proc.devRef .tc main_v55)
      = Cert.Gcn.lin (Cert.Gcn.act (Cert.Gcn.agg (m ((c : Thread nD τ).loc main_arg1)) (Cert.Gcn.lin (m ((c : Thread nD τ).loc main_arg0)) (m ((c : Thread nD τ).loc main_arg3))))
          (m ((c : Thread nD τ).loc main_arg4))) (m ((c : Thread nD τ).loc main_arg5)) := by
  refine (W6_arr m ρ c 3).trans ((Region1.final (V5 m ρ) c (m ((c : Thread nD τ).loc main_arg4)) (W5_bias m ρ c)).trans ?_)
  show Cert.Gcn.lin (Cert.Gcn.act (W5 m ρ c (Proc.devRef .tc main_v53)) _) (W5 m ρ c (Proc.devRef .tc main_arg5)) = _
  rw [W5_agg, after_call0, W5_arg m ρ c main_arg5 (by unfold IsArg5; simp)]

/-- What the third call leaves. -/
theorem after_call2 (c : Dev nD) :
    W8 m ρ c (Proc.devRef .tc main_v75)
      = Cert.Gcn.act (Cert.Gcn.agg (m ((c : Thread nD τ).loc main_arg1))
          (Cert.Gcn.lin (Cert.Gcn.act (Cert.Gcn.agg (m ((c : Thread nD τ).loc main_arg1)) (Cert.Gcn.lin (m ((c : Thread nD τ).loc main_arg0)) (m ((c : Thread nD τ).loc main_arg3))))
            (m ((c : Thread nD τ).loc main_arg4))) (m ((c : Thread nD τ).loc main_arg5)))) (m ((c : Thread nD τ).loc main_arg6)) := by
  refine (W8_arr m ρ c 2).trans ((Region2.final (V7 m ρ) c (m ((c : Thread nD τ).loc main_arg6)) (W7_bias m ρ c)).trans ?_)
  show Cert.Gcn.act (W7 m ρ c (Proc.devRef .tc main_v73)) _ = _
  rw [W7_agg, after_call1]

/-- The result buffer after the run is the network of the arguments. -/
theorem result_eq (c : Dev nD) :
    W10 m ρ c (Proc.devRef .tc main_v100)
      = Cert.Gcn.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  refine (W10_arr m ρ c 5).trans ((Region3.final (V9 m ρ) c (m ((c : Thread nD τ).loc main_arg8)) (m ((c : Thread nD τ).loc main_arg10)) (W9_bias m ρ c) (W9_bias' m ρ c)).trans ?_)
  show Cert.Gcn.head (W9 m ρ c (Proc.devRef .tc main_v97)) (W9 m ρ c (Proc.devRef .tc main_arg7)) _ (W9 m ρ c (Proc.devRef .tc main_arg9)) _ = _
  rw [W9_pool, after_call2, W9_w, W9_w']
  rfl

/-- The run with the result as the network of the arguments. -/
theorem run_value : θ_run defs (onTc (τ := τ) (main (F := Ideal))) ⟨m, fun _ => 0, ρ⟩ (fun r => ∀ c : Dev nD,
      r.2.mem ((c.tc : Thread nD τ).loc main_v100)
        = Cert.Gcn.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (result_eq m ρ c), (h c).2⟩) (run_named (F := Ideal) m ρ)

end Cert.KernelIdeal.Named

end
-- ==== Proof.RefIsSpec.lean ====
/-
  The reference program's result is the network `G` of its eleven arguments: its run's result term is `G` with every
  named piece written out in place.
-/
import proofs.«114673_j12034498363886_1_alg».proof.Proof.RefRunPatched
import proofs.«114673_j12034498363886_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxHeartbeats 2000000 in
/-- The reference's result term is `G` of the launch contents of its arguments. -/
theorem res_eq (m : (ℓ : Loc nD τ sig) → Buf (Elt F) ℓ) (c : Dev nD) :
    Cert.ReferenceIdeal.ValueP.res_main_v111 m c
      = Cert.Gcn.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.ValueP.res_main_v111
  rfl

end Cert.ReferenceIdeal.RefValue

end
-- ==== Proof.lean ====
/-
  A two-layer graph convolution with per-graph mean pooling and a two-layer head, computed two ways.

  The kernel program runs four calls on the matrix unit — x · W1, relu(a + b1) · W2 and relu(a + b2) over row blocks of
  5000 nodes, and the head relu(p · W + b) · W' + b' in one block — with the graph bookkeeping between them done by host
  operations: the edge list extended by self loops, the degree normalisation, one gather / scale / scatter-add round
  after each of the first two calls, and the per-graph mean before the last. The reference does all of it by host
  operations. On exact values both compute the one function `Cert.Gcn.G` of the eleven arguments:

  * the host operations between the calls are the same operations in both programs, so they are carried as they stand
    (no gather, scatter-add or select is opened);
  * a call's blocks tile its output, and entry (5000 t + p, q) of block t is the matching entry of the whole-array
    function: a product accumulated into a zero array is the plain sum over k of the products of the entries, which is
    the host's product; rounding the operands to bf16 is the identity on exact values; a bias given as one row and laid
    down the rows is the host's two broadcasts of the vector; the clamp at 0 is the same maximum.

  No law of the extended reals beyond these readings is used, so the precondition (finite inputs) is never opened.
  The three frames: the two kernel programs' are the generated ones; the reference's is its run with the result
  dropped. The ideal pass rewrote nothing, so `preserves` is trivial.
-/
import proofs.«114673_j12034498363886_1_alg».proof.Defs
import proofs.«114673_j12034498363886_1_alg».proof.Proof.Gen.Kernel
import proofs.«114673_j12034498363886_1_alg».proof.Proof.Gen.Kernel.Skeleton
import proofs.«114673_j12034498363886_1_alg».proof.Proof.Gen.Kernel.Launch
import proofs.«114673_j12034498363886_1_alg».proof.Proof.Gen.Kernel.Points
import proofs.«114673_j12034498363886_1_alg».proof.Proof.Gen.Kernel.Frame
import proofs.«114673_j12034498363886_1_alg».proof.Proof.Gen.KernelIdeal
import proofs.«114673_j12034498363886_1_alg».proof.Proof.Gen.KernelIdeal.Skeleton
import proofs.«114673_j12034498363886_1_alg».proof.Proof.Gen.KernelIdeal.Launch
import proofs.«114673_j12034498363886_1_alg».proof.Proof.Gen.KernelIdeal.Points
import proofs.«114673_j12034498363886_1_alg».proof.Proof.Gen.KernelIdeal.Frame
import proofs.«114673_j12034498363886_1_alg».proof.Proof.Gen.ReferenceIdeal
import proofs.«114673_j12034498363886_1_alg».proof.Proof.Gen.Pre_finite_inputs
import proofs.«114673_j12034498363886_1_alg».proof.Proof.Kernel
import proofs.«114673_j12034498363886_1_alg».proof.Proof.RefIsSpec
import Idealize.ShloMosaic.Adequacy
import Idealize.ShloMosaic.Init

noncomputable section

namespace Cert.Proof

open Idealize.ShloMosaic Idealize.SL.Sem Cert.Kernel

/-- The word-level kernel program terminates without a fault and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the network `G` of the arguments. -/
theorem algebraic : Cert.algebraic_KernelIdeal_ReferenceIdeal := by
  intro m ρ m' ρ' _ hagree
  refine ⟨fun c => Cert.Gcn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.Named.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.RefValue.res_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
